-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : FVec F S96x96 .f32) (main_arg2 : FVec F S96 .f32) (main_arg3 : FVec F S96x96 .f32) (main_arg4 : FVec F S96 .f32) (main_arg5 : IVec S800000 32) (main_arg6 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_v13 main_v16
-- ==== Kernel.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S5000x96 : Shape := ⟨2, ![5000, 96]⟩
abbrev S1x96 : Shape := ⟨2, ![1, 96]⟩

abbrev nBuf : Space → Nat
  | .hbm => 21
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96, .f32⟩
  | .local _ .vmem, ⟨6, _⟩ => ⟨S96x96, .f32⟩
  | .local _ .vmem, ⟨7, _⟩ => ⟨S96, .f32⟩
  | .local _ .vmem, ⟨8, _⟩ => ⟨S5000x96, .f32⟩
  | .local _ .vmem, ⟨9, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96.size a ≤ S96.size a
  hwx0_3 : ∀ i : grid0.Coords, EltTy.bits .f32 = 32 ∨ (Rect.block (s := S96) S96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 35
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S_, .f32⟩
  | .hbm, ⟨21, _⟩ => ⟨S50000x96, .f32⟩
  | .hbm, ⟨22, _⟩ => ⟨S50000x96, .f32⟩
  | .hbm, ⟨23, _⟩ => ⟨S50000x96, .f32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x96, .f32⟩
  | .hbm, ⟨28, _⟩ => ⟨S_, .f32⟩
  | .hbm, ⟨29, _⟩ => ⟨S50000x96, .f32⟩
  | .hbm, ⟨30, _⟩ => ⟨S50000x96, .f32⟩
  | .hbm, ⟨31, _⟩ => ⟨S50000x96, .f32⟩
  | .hbm, ⟨32, _⟩ => ⟨S1x96, .f32⟩
  | .hbm, ⟨33, _⟩ => ⟨S50000x96, .f32⟩
  | .hbm, ⟨34, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.RowMlp.lean ====
/-
  One node's row of the two-layer perceptron, on the extended reals.

  A node's combined feature row is `one * f j + n j` (the node's own features scaled by the residual weight, plus the
  sum of its in-neighbours' features). The first layer sends it to `max (∑ j, row j * W1 (j, k) + b1 k) zero`, the
  second layer to `∑ k, hidden k * W2 (k, q) + b2 q`. The two float words `one` and `zero` are kept as the words the
  programs print: both programs carry the same words, so their values are never needed.
-/
import Idealize.ShloMosaic.PureOps.Ideal
import Idealize.ShloMosaic.Lib.ValueIdx

noncomputable section

open scoped BigOperators

namespace Cert.GinMlp

open Idealize.ShloMosaic Idealize.ShloMosaic.ValueIdx

/-- The residual weight `1 + eps` with `eps = 0`, as the float word both programs carry. -/
abbrev oneW : EReal := Ideal.ofBits .f32 0x3F800000#32
/-- The rectifier's threshold, as the float word both programs carry. -/
abbrev zeroW : EReal := Ideal.ofBits .f32 0x00000000#32

/-- Entry `k` of a node's hidden row: the rectified first layer of the combined feature row. -/
def hiddenAt (f n : Fin 96 → EReal) (W1 : (⟨2, ![96, 96]⟩ : Shape).Idx → EReal) (b1 : (⟨1, ![96]⟩ : Shape).Idx → EReal)
    (k : Fin 96) : EReal :=
  max ((∑ j : Fin 96, (oneW * f j + n j) * W1 (ix2 j k)) + b1 (ix1 k)) zeroW

/-- Entry `q` of a node's output row: the second layer of its hidden row. -/
def rowOut (f n : Fin 96 → EReal) (W1 : (⟨2, ![96, 96]⟩ : Shape).Idx → EReal) (b1 : (⟨1, ![96]⟩ : Shape).Idx → EReal)
    (W2 : (⟨2, ![96, 96]⟩ : Shape).Idx → EReal) (b2 : (⟨1, ![96]⟩ : Shape).Idx → EReal) (q : Fin 96) : EReal :=
  (∑ k : Fin 96, hiddenAt f n W1 b1 k * W2 (ix2 k q)) + b2 (ix1 q)

/-- THE WHOLE LAYER over `N` nodes: entry `(r, q)` is node `r`'s output row at `q`, from row `r` of the feature array
    and row `r` of the neighbour-sum array. -/
def layer {N : Nat} (feat neigh : (⟨2, ![N, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) : (⟨2, ![N, 96]⟩ : Shape).Idx → EReal :=
  fun i => rowOut (fun j => feat (ix2 (i 0) j)) (fun j => neigh (ix2 (i 0) j)) W1 b1 W2 b2 (i 1)

theorem layer_apply {N : Nat} (feat neigh : (⟨2, ![N, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) (r : Fin N) (q : Fin 96) :
    layer feat neigh W1 b1 W2 b2 (ix2 r q)
      = rowOut (fun j => feat (ix2 r j)) (fun j => neigh (ix2 r j)) W1 b1 W2 b2 q := rfl

end Cert.GinMlp

end
-- ==== Proof.BlockReads.lean ====
/-
  How each staged block sits in its array.

  The grid has ten points; point `t` stages rows `5000 t … 5000 t + 4999` of the feature array and of the
  neighbour-sum array, the two weight matrices and the two bias vectors whole, and writes back rows
  `5000 t … 5000 t + 4999` of the result. Here each window's block, read off ANY array `X` of the window's shape, is
  read as `X` at the matching index; the arrays are variables, so nothing here depends on what they hold.
-/
import proofs.«131680_j28716151341439_2_alg».proof.Proof.Gen.KernelIdeal.Frame
import proofs.«131680_j28716151341439_2_alg».proof.Proof.RowMlp
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx

/-- The printed index maps, decided over the ten points: the two row-blocked inputs move with the output's row
    block and sit at column block 0; the weights and biases sit at block 0; the output's row block is at most 9. -/
theorem idx_facts : ∀ t : Fin cfg0.N, win0_6.index t (0 : Fin 2) ≤ 9 ∧ win0_6.index t (1 : Fin 2) = 0
    ∧ win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- Every row block is SOME point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- Row `p` of point `t`'s block is row `5000 t + p` of the array (the output's row block index standing for `t`). -/
def rowOf (t : Fin cfg0.N) (p : Fin 5000) : Fin 50000 :=
  ⟨win0_6.index t (0 : Fin 2) * 5000 + p.val, by have := (idx_facts t).1; have := p.isLt; omega⟩

/-- Window 0's block at `(p, j)` is its array at row `rowOf t p`. -/
theorem read0 (X : S50000x96.Idx → EReal) (t : Fin cfg0.N) (p : Fin 5000) (j : Fin 96) :
    ((cfg0.win 0).blk t).view.read (Elt Ideal) X (ix2 p j) = X (ix2 (rowOf t p) j) := by
  obtain ⟨-, -, e00, e01, -, -, -, -, -, -, -, -⟩ := idx_facts t
  show X (((cfg0.win 0).blk t).view.emb (ix2 p j)) = X (ix2 (rowOf t p) j)
  refine congrArg X (funext fun a => Fin.ext ?_)
  match a with
  | ⟨0, _⟩ => show win0_0.index t (0 : Fin 2) * 5000 + 1 * p.val = win0_6.index t (0 : Fin 2) * 5000 + p.val; omega
  | ⟨1, _⟩ => show win0_0.index t (1 : Fin 2) * 96 + 1 * j.val = j.val; omega

/-- Window 1's block at `(p, j)` is its array at row `rowOf t p`. -/
theorem read1 (X : S50000x96.Idx → EReal) (t : Fin cfg0.N) (p : Fin 5000) (j : Fin 96) :
    ((cfg0.win 1).blk t).view.read (Elt Ideal) X (ix2 p j) = X (ix2 (rowOf t p) j) := by
  obtain ⟨-, -, -, -, e10, e11, -, -, -, -, -, -⟩ := idx_facts t
  show X (((cfg0.win 1).blk t).view.emb (ix2 p j)) = X (ix2 (rowOf t p) j)
  refine congrArg X (funext fun a => Fin.ext ?_)
  match a with
  | ⟨0, _⟩ => show win0_1.index t (0 : Fin 2) * 5000 + 1 * p.val = win0_6.index t (0 : Fin 2) * 5000 + p.val; omega
  | ⟨1, _⟩ => show win0_1.index t (1 : Fin 2) * 96 + 1 * j.val = j.val; omega

/-- Window 2's block is its whole array. -/
theorem read2 (X : S96x96.Idx → EReal) (t : Fin cfg0.N) : ((cfg0.win 2).blk t).view.read (Elt Ideal) X = X := by
  obtain ⟨-, -, -, -, -, -, e20, e21, -, -, -, -⟩ := idx_facts t
  funext y
  show X (((cfg0.win 2).blk t).view.emb y) = X y
  refine congrArg X (funext fun a => Fin.ext ?_)
  match a with
  | ⟨0, _⟩ => show win0_2.index t (0 : Fin 2) * 96 + 1 * (y 0).val = (y 0).val; omega
  | ⟨1, _⟩ => show win0_2.index t (1 : Fin 2) * 96 + 1 * (y 1).val = (y 1).val; omega

/-- Window 3's block is its whole array. -/
theorem read3 (X : S96.Idx → EReal) (t : Fin cfg0.N) : ((cfg0.win 3).blk t).view.read (Elt Ideal) X = X := by
  obtain ⟨-, -, -, -, -, -, -, -, e30, -, -, -⟩ := idx_facts t
  funext y
  show X (((cfg0.win 3).blk t).view.emb y) = X y
  refine congrArg X (funext fun a => Fin.ext ?_)
  match a with
  | ⟨0, _⟩ => show win0_3.index t (0 : Fin 1) * 96 + 1 * (y 0).val = (y 0).val; omega

/-- Window 4's block is its whole array. -/
theorem read4 (X : S96x96.Idx → EReal) (t : Fin cfg0.N) : ((cfg0.win 4).blk t).view.read (Elt Ideal) X = X := by
  obtain ⟨-, -, -, -, -, -, -, -, -, e40, e41, -⟩ := idx_facts t
  funext y
  show X (((cfg0.win 4).blk t).view.emb y) = X y
  refine congrArg X (funext fun a => Fin.ext ?_)
  match a with
  | ⟨0, _⟩ => show win0_4.index t (0 : Fin 2) * 96 + 1 * (y 0).val = (y 0).val; omega
  | ⟨1, _⟩ => show win0_4.index t (1 : Fin 2) * 96 + 1 * (y 1).val = (y 1).val; omega

/-- Window 5's block is its whole array. -/
theorem read5 (X : S96.Idx → EReal) (t : Fin cfg0.N) : ((cfg0.win 5).blk t).view.read (Elt Ideal) X = X := by
  obtain ⟨-, -, -, -, -, -, -, -, -, -, -, e50⟩ := idx_facts t
  funext y
  show X (((cfg0.win 5).blk t).view.emb y) = X y
  refine congrArg X (funext fun a => Fin.ext ?_)
  match a with
  | ⟨0, _⟩ => show win0_5.index t (0 : Fin 1) * 96 + 1 * (y 0).val = (y 0).val; omega

/-- Entry `(p, q)` of the output block of point `t` sits at `(rowOf t p, q)` of the result array. -/
theorem emb6 (t : Fin cfg0.N) (p : Fin 5000) (q : Fin 96) :
    ((cfg0.win 6).blk t).view.emb (ix2 p q) = ix2 (rowOf t p) q := by
  obtain ⟨-, e61, -, -, -, -, -, -, -, -, -, -⟩ := idx_facts t
  funext a
  refine Fin.ext ?_
  match a with
  | ⟨0, _⟩ => show win0_6.index t (0 : Fin 2) * 5000 + 1 * p.val = win0_6.index t (0 : Fin 2) * 5000 + p.val; omega
  | ⟨1, _⟩ => show win0_6.index t (1 : Fin 2) * 96 + 1 * q.val = q.val; omega

end Cert.KernelIdeal.BlockReads

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.BlockBody.lean ====
/-
  What the kernel body stores, read at an index.

  The body loads a block of 5000 feature rows `x0`, the same rows of the neighbour sums `x1`, the two weight
  matrices `x2`, `x4` and the two bias vectors `x3`, `x5`. Entry `(p, q)` of what it stores is the perceptron's output
  row of node `p` of the block at `q`: the rounding to bf16 before each product is the identity on the extended
  reals, each product into a zero accumulator is a plain sum over the contracted axis, and a bias vector cast to one
  row and broadcast over the rows reads its entry at the column.
-/
import proofs.«131680_j28716151341439_2_alg».proof.Proof.Gen.KernelIdeal.Skeleton
import proofs.«131680_j28716151341439_2_alg».proof.Proof.RowMlp
import proofs.«131680_j28716151341439_2_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.BlockBody

open Cert.KernelIdeal Cert.KernelIdeal.Gen Idealize.ShloMosaic Idealize.ShloMosaic.ValueIdx Cert.GinMlp

/-- The body's product record is the plain `[5000, 96] × [96, 96]` product's. -/
theorem dot_eq : dot_S5000x96_S96x96_S5000x96_1_0_0_1_n_n
    = Cert.LibPlainDot.plainDot 5000 96 96 Facts₀.dot_S5000x96_S96x96_S5000x96_1_0_0_1_n_n_wf := rfl

/-- ENTRY `(p, q)` OF THE STORED BLOCK is node `p`'s output row at `q`. -/
theorem pay_apply (x0 x1 : Vec Ideal S5000x96 .f32) (x2 : Vec Ideal S96x96 .f32) (x3 : Vec Ideal S96 .f32)
    (x4 : Vec Ideal S96x96 .f32) (x5 : Vec Ideal S96 .f32) (p : Fin 5000) (q : Fin 96) :
    k0_pay1 (F := Ideal) x0 x1 x2 x3 x4 x5 (ix2 p q)
      = rowOut (fun j => x0 (ix2 p j)) (fun j => x1 (ix2 p j)) x2 x3 x4 x5 q := by
  unfold k0_pay1 rowOut hiddenAt
  rw [dot_eq, shapeCast_self x1]
  simp only [matmul, addf_apply, broadcastTo_1b_ab_apply, shapeCast_a_1a_apply]
  rw [Cert.LibPlainDot.matmul_zero_apply]
  refine congrArg (· + x5 (ix1 q)) (Finset.sum_congr rfl fun k _ => ?_)
  simp only [truncf_apply, maximumf_apply, addf_apply, broadcast_apply, broadcastTo_1b_ab_apply, shapeCast_a_1a_apply]
  rw [Cert.LibPlainDot.matmul_zero_apply]
  simp only [truncf_apply, addf_apply, mulf_apply, broadcast_apply]
  rfl

end Cert.KernelIdeal.BlockBody

end
-- ==== Proof.WholeArray.lean ====
/-
  From the blocks to the whole result array.

  A node's output row depends only on that node's row of the feature array and of the neighbour-sum array, so what
  point `t` writes back is block `t` of ONE function of the arrays the windows stage — the perceptron layer —, and
  the ten blocks tile the 50000 rows: the result array ends holding the layer of the arrays as the region finds them.
  The per-point statement is made for arbitrary arrays and only then read at the arrays the region finds.
-/
import proofs.«131680_j28716151341439_2_alg».proof.Proof.Gen.KernelIdeal.Value
import proofs.«131680_j28716151341439_2_alg».proof.Proof.BlockReads
import proofs.«131680_j28716151341439_2_alg».proof.Proof.BlockBody

noncomputable section

namespace Cert.KernelIdeal.WholeArray

open Cert.KernelIdeal Cert.KernelIdeal.Gen Idealize.ShloMosaic Idealize.ShloMosaic.TcCoe Idealize.SL.Sem
open Idealize.ShloMosaic.ValueIdx Cert.GinMlp Cert.KernelIdeal.BlockReads
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- WHAT THE BODY LEAVES AT POINT `t`, from the blocks of any six arrays, is block `t` of their layer. -/
theorem point_eq (X0 X1 : S50000x96.Idx → EReal) (W1 : S96x96.Idx → EReal) (B1 : S96.Idx → EReal)
    (W2 : S96x96.Idx → EReal) (B2 : S96.Idx → EReal) (t : Fin cfg0.N) :
    (cfg0.win 6).cut (grid0.coords t)
      (out0_6 (((cfg0.win 0).blk t).view.read (Elt Ideal) X0) (((cfg0.win 1).blk t).view.read (Elt Ideal) X1)
        (((cfg0.win 2).blk t).view.read (Elt Ideal) W1) (((cfg0.win 3).blk t).view.read (Elt Ideal) B1)
        (((cfg0.win 4).blk t).view.read (Elt Ideal) W2) (((cfg0.win 5).blk t).view.read (Elt Ideal) B2))
      = ((cfg0.win 6).blk t).view.read (Elt Ideal) (layer X0 X1 W1 B1 W2 B2) := by
  rw [read2, read3, read4, read5]
  unfold out0_6
  rw [View.canon_unit_zero hz2]
  simp only [View.ld_unit_zero (S := S5000x96) hz2, View.ld_unit_zero (S := S96x96) hz2, View.ld_unit_zero (S := S96) hz1]
  funext y
  obtain ⟨p, q, rfl⟩ : ∃ (p : Fin 5000) (q : Fin 96), y = ix2 p q := ⟨y 0, y 1, eq_ix2 y⟩
  show k0_pay1 (((cfg0.win 0).blk t).view.read (Elt Ideal) X0) (((cfg0.win 1).blk t).view.read (Elt Ideal) X1) W1 B1 W2 B2 (ix2 p q)
    = layer X0 X1 W1 B1 W2 B2 (((cfg0.win 6).blk t).view.emb (ix2 p q))
  rw [emb6 t p q, layer_apply]
  refine (Cert.KernelIdeal.BlockBody.pay_apply _ _ W1 B1 W2 B2 p q).trans ?_
  have h0 : (fun j : Fin 96 => ((cfg0.win 0).blk t).view.read (Elt Ideal) X0 (ix2 p j)) = fun j => X0 (ix2 (rowOf t p) j) :=
    funext fun j => read0 X0 t p j
  have h1 : (fun j : Fin 96 => ((cfg0.win 1).blk t).view.read (Elt Ideal) X1 (ix2 p j)) = fun j => X1 (ix2 (rowOf t p) j) :=
    funext fun j => read1 X1 t p j
  exact congrArg₂ (fun f n => rowOut f n W1 B1 W2 B2 q) h0 h1

/-- The layer of the arrays as the region finds them, each named by its window. -/
def result (m : (ℓ : Loc nD τ sig) → Buf (Elt Ideal) ℓ) (c : Dev nD) : S50000x96.Idx → EReal :=
  layer (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

variable (m : (ℓ : Loc nD τ sig) → Buf (Elt Ideal) ℓ) (ρ : Dev nD → PrngReg)

/-- WHAT POINT `t` WRITES BACK is block `t` of the layer of the arrays as the region finds them. -/
theorem flushed_eq (c : Dev nD) (t : Fin cfg0.N) :
    (dats m 0 c).flushed 6 t = ((cfg0.win 6).blk t).view.read (Elt Ideal) (result m c) :=
  (Cert.KernelIdeal.Value.flushed6 m c t).trans
    (point_eq (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5)) t)

/-- An index of the array is in point `t`'s block iff each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v10).slice (win0_6.rect t)).set ↔ _
  rw [View.set_slice_whole, Rect.mem_set_unit]
  exact Iff.rfl

/-- The ten blocks tile the rows: row `r` is in the block of the point whose row block is `r / 5000`. -/
theorem cover (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- THE RESULT ARRAY after the run is the layer of the arrays as the region finds them. -/
theorem final (c : Dev nD) : (dats m 0 c).arrAt 6 cfg0.N = result m c :=
  (dats m 0 c).arrAt_eq_of_cover 6 (result m c) (fun t _ => flushed_eq m c t) cover

end Cert.KernelIdeal.WholeArray

end
-- ==== Proof.KernelRun.lean ====
/-
  The kernel's run, read: the result array is the perceptron layer of the argument arrays.

  Before the region the host computes the neighbour sums: each edge's source index (a negative one wrapped by the
  number of nodes) gathers a row of the feature array, and the gathered rows are scatter-added into a zero array at
  the edges' destination indices. The region then finds the arguments as launched and the neighbour sums in their
  buffer, so the layer of the arrays as the region finds them is the layer of the arguments and of that sum.
-/
import proofs.«131680_j28716151341439_2_alg».proof.Proof.WholeArray
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.StableHlo Cert.GinMlp

variable (m : (ℓ : Loc nD τ sig) → Buf (Elt Ideal) ℓ) (ρ : Dev nD → PrngReg)

/-- THE NEIGHBOUR SUMS as the host computes them from the feature array `x0`, the edges' source indices `x5` and
    destination indices `x6`. -/
def neigh (x0 : (⟨S50000x96, .f32⟩ : BufTy).Contents (Elt Ideal)) (x5 x6 : (⟨S800000, .i32⟩ : BufTy).Contents (Elt Ideal)) :
    (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 x6)
    (Host.gather gather_S50000x96_S800000x1_S800000x96_1_0_n_n_0_1_196 x0
      (broadcastInDim S800000x1 ![0] bcast_S800000_S800000x1_0
        (select (cmpi .slt x5 (broadcastInDim S800000 ![] bcast_S_S800000 (constantI S_ 32 0#32)))
          (addi x5 (broadcastInDim S800000 ![] bcast_S_S800000 (constantI S_ 32 50000#32))) x5)))

set_option maxHeartbeats 400000 in
/-- The region finds the neighbour sums of the launched arguments in window 1's array. -/
theorem V_neigh (c : Dev nD) :
    (V m c (Pipeline.arrRef spec0 1) : (⟨S50000x96, .f32⟩ : BufTy).Contents (Elt Ideal))
      = neigh (m ((c : Thread nD τ).loc main_arg0)) (m ((c : Thread nD τ).loc main_arg5)) (m ((c : Thread nD τ).loc main_arg6)) := by
  show (V m c main_v9 : (⟨S50000x96, .f32⟩ : BufTy).Contents (Elt Ideal)) = _
  dsimp only [Gen.V, Gen.hostOps0]
  after_results
  unfold neigh
  rfl

/-- THE RESULT ARRAY after the run is the layer of the launched arguments and their neighbour sums. -/
theorem final (c : Dev nD) : (dats m 0 c).arrAt 6 cfg0.N
    = layer (m ((c : Thread nD τ).loc main_arg0))
        (neigh (m ((c : Thread nD τ).loc main_arg0)) (m ((c : Thread nD τ).loc main_arg5)) (m ((c : Thread nD τ).loc main_arg6)))
        (m ((c : Thread nD τ).loc main_arg1)) (m ((c : Thread nD τ).loc main_arg2))
        (m ((c : Thread nD τ).loc main_arg3)) (m ((c : Thread nD τ).loc main_arg4)) := by
  have e0 : V m c (Pipeline.arrRef spec0 0) = m ((c : Thread nD τ).loc main_arg0) := V_main_arg0 m c
  have e2 : V m c (Pipeline.arrRef spec0 2) = m ((c : Thread nD τ).loc main_arg1) := V_main_arg1 m c
  have e3 : V m c (Pipeline.arrRef spec0 3) = m ((c : Thread nD τ).loc main_arg2) := V_main_arg2 m c
  have e4 : V m c (Pipeline.arrRef spec0 4) = m ((c : Thread nD τ).loc main_arg3) := V_main_arg3 m c
  have e5 : V m c (Pipeline.arrRef spec0 5) = m ((c : Thread nD τ).loc main_arg4) := V_main_arg4 m c
  rw [Cert.KernelIdeal.WholeArray.final m c]
  unfold Cert.KernelIdeal.WholeArray.result
  rw [V_neigh m c, e0, e2, e3, e4, e5]

/-- The frame run re-posted: the result array at the layer of the arguments, the arguments unchanged. -/
theorem run : θ_run defs (onTc (τ := τ) (main (F := Ideal))) ⟨m, fun _ => 0, ρ⟩ fun r => ∀ c : Dev nD,
      r.2.mem ((c : Thread nD τ).loc main_v10)
        = layer (m ((c : Thread nD τ).loc main_arg0))
            (neigh (m ((c : Thread nD τ).loc main_arg0)) (m ((c : Thread nD τ).loc main_arg5)) (m ((c : Thread nD τ).loc main_arg6)))
            (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.KernelRun

end
-- ==== Proof.RefLayer.lean ====
/-
  The reference computes the perceptron layer.

  Read one operation at a time, entry `(r, q)` of the reference's result is the second product's sum over `k` of the
  rectified first layer at `(r, k)` times `W2 (k, q)`, plus `b2 q`; the first layer at `(r, k)` is the sum over `j` of
  `(one * feat (r, j) + neigh (r, j)) * W1 (j, k)`, plus `b1 k`; each bias is a vector laid as one row and repeated
  over the rows. That is node `r`'s output row at `q`, with the neighbour sums kept as the array the host's gather
  and scatter-add produce.
-/
import proofs.«131680_j28716151341439_2_alg».proof.Proof.Gen.ReferenceIdeal.Read
import proofs.«131680_j28716151341439_2_alg».proof.Proof.RowMlp

noncomputable section

open scoped BigOperators

namespace Cert.ReferenceIdeal.RefLayer

open Cert.ReferenceIdeal Cert.ReferenceIdeal.Read Idealize.ShloMosaic Idealize.ShloMosaic.ValueIdx Cert.GinMlp

/-- THE REFERENCE'S RESULT is the layer of the feature array, the neighbour sums, the weights and the biases. -/
theorem ref_eq (x0 : (⟨S50000x96, .f32⟩ : BufTy).Contents (Elt Ideal)) (x1 : (⟨S96x96, .f32⟩ : BufTy).Contents (Elt Ideal))
    (x2 : (⟨S96, .f32⟩ : BufTy).Contents (Elt Ideal)) (x3 : (⟨S96x96, .f32⟩ : BufTy).Contents (Elt Ideal))
    (x4 : (⟨S96, .f32⟩ : BufTy).Contents (Elt Ideal)) (x5 x6 : (⟨S800000, .i32⟩ : BufTy).Contents (Elt Ideal)) :
    val_main_v21 (F := Ideal) x0 x1 x2 x3 x4 x5 x6
      = layer x0 (val_main_v9 (F := Ideal) x0 x5 x6) x1 x2 x3 x4 := by
  funext i
  obtain ⟨r, q, rfl⟩ : ∃ (r : Fin 50000) (q : Fin 96), i = ix2 r q := ⟨i 0, i 1, eq_ix2 i⟩
  rw [layer_apply]
  unfold rowOut hiddenAt
  have hl18 : ∀ k : Fin 96, lidx_main_v18 (ix2 r q) k = ix2 r k := fun k =>
    funext fun a => by match a with | ⟨0, _⟩ => rfl | ⟨1, _⟩ => rfl
  have hr18 : ∀ k : Fin 96, ridx_main_v18 (ix2 r q) k = ix2 k q := fun k =>
    funext fun a => by match a with | ⟨0, _⟩ => rfl | ⟨1, _⟩ => rfl
  have hl13 : ∀ k j : Fin 96, lidx_main_v13 (ix2 r k) j = ix2 r j := fun k j =>
    funext fun a => by match a with | ⟨0, _⟩ => rfl | ⟨1, _⟩ => rfl
  have hr13 : ∀ k j : Fin 96, ridx_main_v13 (ix2 r k) j = ix2 j k := fun k j =>
    funext fun a => by match a with | ⟨0, _⟩ => rfl | ⟨1, _⟩ => rfl
  have hb2 : idx_main_v19 (idx_main_v20 (ix2 r q)) = ix1 q :=
    funext fun a => by match a with | ⟨0, _⟩ => rfl
  have hb1 : ∀ k : Fin 96, idx_main_v14 (idx_main_v15 (ix2 r k)) = ix1 k := fun k =>
    funext fun a => by match a with | ⟨0, _⟩ => rfl
  rw [val_main_v21_apply, val_main_v18_apply, val_main_v20_apply, val_main_v19_apply, hb2]
  simp only [hl18, hr18, val_main_v17_apply, val_main_v16_apply, val_main_v13_apply, val_main_v15_apply,
    val_main_v14_apply, hb1, hl13, hr13, val_main_call0_v0_apply, val_main_call0_cst_apply, val_main_v12_apply,
    val_main_v11_apply, val_main_v10_apply, val_main_cst_1_apply]
  rfl

end Cert.ReferenceIdeal.RefLayer

end
-- ==== Proof.lean ====
/-
  The graph-isomorphism layer: a node's features plus the sum of its in-neighbours' features, through a two-layer
  perceptron (a product with `W1`, a bias, a rectifier, a product with `W2`, a bias).

  Both programs compute the neighbour sums on the host by the same gather and scatter-add. The kernel then runs the
  perceptron over ten blocks of 5000 nodes, rounding to bf16 before each product; the reference runs it over all
  50000 nodes at once. On the extended reals the rounding is the identity and a product into a zero accumulator is
  the plain sum over the contracted axis, so entry `(r, q)` of either result is node `r`'s output row at `q`
  (`Cert.GinMlp.layer`): the same sums of the same terms in the same order, and no law of arithmetic is needed
  beyond reading both programs at an index — in particular nothing asks the inputs to be finite.

  The kernel's side: what the body stores at an index (BlockBody), the ten blocks assembled into the whole array
  (WholeArray), the host's neighbour sums read off the operations before the region (KernelRun). The reference's
  side: its result read one operation at a time (RefLayer). The idealized kernel is the kernel's own text read on
  the extended reals (no operation was rewritten), so the conjunct relating the two is trivial.
-/
import proofs.«131680_j28716151341439_2_alg».proof.Defs
import proofs.«131680_j28716151341439_2_alg».proof.Proof.Gen.Kernel
import proofs.«131680_j28716151341439_2_alg».proof.Proof.Gen.Kernel.Skeleton
import proofs.«131680_j28716151341439_2_alg».proof.Proof.Gen.Kernel.Launch
import proofs.«131680_j28716151341439_2_alg».proof.Proof.Gen.Kernel.Points
import proofs.«131680_j28716151341439_2_alg».proof.Proof.Gen.Kernel.Frame
import proofs.«131680_j28716151341439_2_alg».proof.Proof.Gen.KernelIdeal
import proofs.«131680_j28716151341439_2_alg».proof.Proof.Gen.KernelIdeal.Skeleton
import proofs.«131680_j28716151341439_2_alg».proof.Proof.Gen.KernelIdeal.Launch
import proofs.«131680_j28716151341439_2_alg».proof.Proof.Gen.KernelIdeal.Points
import proofs.«131680_j28716151341439_2_alg».proof.Proof.Gen.KernelIdeal.Frame
import proofs.«131680_j28716151341439_2_alg».proof.Proof.Gen.ReferenceIdeal
import proofs.«131680_j28716151341439_2_alg».proof.Proof.Gen.Pre_finite_inputs
import proofs.«131680_j28716151341439_2_alg».proof.Proof.Gen.KernelIdeal.Value
import proofs.«131680_j28716151341439_2_alg».proof.Proof.Gen.ReferenceIdeal.Run
import proofs.«131680_j28716151341439_2_alg».proof.Proof.Gen.ReferenceIdeal.Read
import proofs.«131680_j28716151341439_2_alg».proof.Proof.KernelRun
import proofs.«131680_j28716151341439_2_alg».proof.Proof.RefLayer
import Idealize.ShloMosaic.Adequacy
import Idealize.ShloMosaic.Init

noncomputable section

namespace Cert.Proof

open Idealize.ShloMosaic Idealize.ShloMosaic.TcCoe Idealize.SL.Sem

/-- The two programs' host prefixes are the same operations: the kernel's neighbour sums are the reference's. -/
theorem neigh_eq (x0 : (⟨Cert.ReferenceIdeal.S50000x96, .f32⟩ : BufTy).Contents (Elt Ideal))
    (x5 x6 : (⟨Cert.ReferenceIdeal.S800000, .i32⟩ : BufTy).Contents (Elt Ideal)) :
    Cert.KernelIdeal.KernelRun.neigh x0 x5 x6 = Cert.ReferenceIdeal.Read.val_main_v9 (F := Ideal) x0 x5 x6 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the perceptron layer of arguments that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.ReferenceIdeal.RefLayer.ref_eq, h0, h1, h2, h3, h4, h5, h6, neigh_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
